-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S2048x2048 : Shape := ⟨2, ![2048, 2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_

variable [Facts]

def fn {F : FTy → Type} [FloatOps F] (main_arg0 : FVec F S8192x2048 .f32) (main_arg1 : FVec F S2048x2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  main_v8
-- ==== Kernel.lean ====
abbrev S8192x2048 : Shape := ⟨2, ![8192, 2048]⟩
abbrev S2048x2048 : Shape := ⟨2, ![2048, 2048]⟩
abbrev S2048x512 : Shape := ⟨2, ![2048, 512]⟩
abbrev S512x2048 : Shape := ⟨2, ![512, 2048]⟩
abbrev S2048x1024 : Shape := ⟨2, ![2048, 1024]⟩
abbrev S512x1024 : Shape := ⟨2, ![512, 1024]⟩

abbrev nBuf : Space → Nat
  | .hbm => 4
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S2048x2048, .bf16⟩
  | .hbm, ⟨3, _⟩ => ⟨S8192x2048, .f32⟩
  | .local _ .vmem, ⟨0, _⟩ => ⟨S2048x512, .f32⟩
  | .local _ .vmem, ⟨1, _⟩ => ⟨S2048x512, .f32⟩
  | .local _ .vmem, ⟨2, _⟩ => ⟨S2048x512, .bf16⟩
  | .local _ .vmem, ⟨3, _⟩ => ⟨S2048x512, .bf16⟩
  | .local _ .vmem, ⟨4, _⟩ => ⟨S512x2048, .f32⟩
  | .local _ .vmem, ⟨5, _⟩ => ⟨S512x2048, .f32⟩
  | .local _ .vmem, ⟨6, _⟩ => ⟨S2048x1024, .bf16⟩
  | .local _ .vmem, ⟨7, _⟩ => ⟨S2048x1024, .bf16⟩
  | .local _ .vmem, ⟨8, _⟩ => ⟨S512x1024, .f32⟩
  | .local _ .vmem, ⟨9, _⟩ => ⟨S512x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![2, 16], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S512x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  inb_S2048x512_S2048x512_0_0 : ∀ a, (![0, 0] : Fin 2 → Nat) a + S2048x512.size a ≤ S2048x512.size a
  h_S2048x512 : 0 < S2048x512.numel
  bitsLt_bf16_f32 : FTy.bits .bf16 < FTy.bits .f32
  packedbf16_S2048x512_S2048x512_0_0 : (Rect.unit (s := S2048x512) ![0, 0] S2048x512.size inb_S2048x512_S2048x512_0_0).PackedRows (EltTy.packing .bf16)
  inb_S512x2048_S512x2048_0_0 : ∀ a, (![0, 0] : Fin 2 → Nat) a + S512x2048.size a ≤ S512x2048.size a
  h_S512x2048 : 0 < S512x2048.numel
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S512x1024_S512x1024_0_0 : ∀ a, (![0, 0] : Fin 2 → Nat) a + S512x1024.size a ≤ S512x1024.size a
  h_S512x1024 : 0 < S512x1024.numel
  dot_S512x2048_S2048x1024_S512x1024_1_0_0_1_n_n_wf : DotDims.WF S512x2048 S2048x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S2048x2048.size a
  hwx0_0 : ∀ i : grid0.Coords, EltTy.bits .f32 = 32 ∨ (Rect.block (s := S2048x2048) S2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S2048x2048.size a
  hwx0_1 : ∀ i : grid0.Coords, EltTy.bits .bf16 = 32 ∨ (Rect.block (s := S2048x2048) S2048x512.size (cc0_transform_1 i) (hinb0_1 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x2048.size a ≤ S8192x2048.size a
  hwx1_0 : ∀ i : grid1.Coords, EltTy.bits .f32 = 32 ∨ (Rect.block (s := S8192x2048) S512x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x1024.size a ≤ S2048x2048.size a
  hwx1_1 : ∀ i : grid1.Coords, EltTy.bits .bf16 = 32 ∨ (Rect.block (s := S2048x2048) S2048x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x1024.size a ≤ S8192x2048.size a
  hwx1_2 : ∀ i : grid1.Coords, EltTy.bits .f32 = 32 ∨ (Rect.block (s := S8192x2048) S512x1024.size (cc1_transform_2 i) (hinb1_2 i)).WholeWords (EltTy.packing .f32)

variable [Facts₀]

def dot_S512x2048_S2048x1024_S512x1024_1_0_0_1_n_n : DotDims S512x2048 S2048x1024 S512x1024 where
  lhsContracting := [1]
  rhsContracting := [0]
  lhsNonContracting := [0]
  rhsNonContracting := [1]
  lhsBatch := []
  rhsBatch := []
  wf := dot_S512x2048_S2048x1024_S512x1024_1_0_0_1_n_n_wf

abbrev win0_0 : Pipeline.Window sig grid0 :=
  Pipeline.Window.ofSpec (Memref.whole main_arg1) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v0) S2048x512.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg0) S512x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v0) S2048x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0) S512x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S8192x2048 : Shape := ⟨2, ![8192, 2048]⟩
abbrev S2048x2048 : Shape := ⟨2, ![2048, 2048]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S_, .f32⟩
  | .hbm, ⟨3, _⟩ => ⟨S2048x2048, .f32⟩
  | .hbm, ⟨4, _⟩ => ⟨S2048x2048, .i1⟩
  | .hbm, ⟨5, _⟩ => ⟨S_, .f32⟩
  | .hbm, ⟨6, _⟩ => ⟨S_, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_cst_1 : Ref sig .tc := ⟨.hbm, 6, rfl⟩
abbrev main_call0_v0 : Ref sig .tc := ⟨.hbm, 7, rfl⟩
abbrev main_call0_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩

abbrev nD : Nat := 1
abbrev τ : Topo := Topo.v7x

variable {F : FTy → Type} [FloatOps F]

class Facts₀ : Prop where
  bcast_S_S2048x2048 : S_.BroadcastsInDim S2048x2048 (![] : Fin 0 → Fin S2048x2048.rank)
  dot_S8192x2048_S2048x2048_S8192x2048_1_0_0_1_n_n_wf : DotDims.WF S8192x2048 S2048x2048 S8192x2048 [1] [0] [0] [1] [] []

variable [Facts₀]

def dot_S8192x2048_S2048x2048_S8192x2048_1_0_0_1_n_n : DotDims S8192x2048 S2048x2048 S8192x2048 where
  lhsContracting := [1]
  rhsContracting := [0]
  lhsNonContracting := [0]
  rhsNonContracting := [1]
  lhsBatch := []
  rhsBatch := []
  wf := dot_S8192x2048_S2048x2048_S8192x2048_1_0_0_1_n_n_wf

class Facts : Prop extends Facts₀ where

variable [Facts]
-- ==== Proof.SignedProduct.lean ====
/-
  The function both programs compute, on the extended reals.

  Every weight is replaced by its sign, with the convention that the sign of zero is +1: the entry is compared
  with zero ("greater than or equal") and the answer selects the number one or the number minus one. The data
  matrix, 8192 rows of 2048 entries, is then multiplied by the 2048 by 2048 matrix of signs: the result's entry in
  row p and column q is the sum, over the 2048 contracted coordinates k, of x (p, k) times the sign of W (k, q).

  The three float literals (zero, one, minus one) are kept as their words: both programs print the same words, so
  they are never evaluated.
-/
import Idealize.ShloMosaic.PureOps.Ideal
import Idealize.ShloMosaic.Lib.ValueIdx

noncomputable section

namespace SignedProduct

open Idealize.ShloMosaic Idealize.ShloMosaic.ValueIdx

/-- The sign of an extended real, with sign 0 = +1: one where `w ≥ 0`, minus one elsewhere. -/
def sgn (w : EReal) : EReal :=
  Scalar.select (FloatOps.cmpf (F := Ideal) (φ := .f32) .oge w (FloatOps.ofBits (F := Ideal) .f32 0x00000000#32))
    (FloatOps.ofBits (F := Ideal) .f32 0x3F800000#32) (FloatOps.ofBits (F := Ideal) .f32 0xBF800000#32)

/-- The matrix of signs of a 2048 by 2048 weight matrix, entry by entry. -/
def signs (W : (⟨2, ![2048, 2048]⟩ : Shape).Idx → EReal) : (⟨2, ![2048, 2048]⟩ : Shape).Idx → EReal :=
  fun j => sgn (W j)

/-- An 8192 by 2048 matrix times a 2048 by 2048 matrix: entry (p, q) is the sum over k of x (p, k) · S (k, q). -/
def times (x : (⟨2, ![8192, 2048]⟩ : Shape).Idx → EReal) (S : (⟨2, ![2048, 2048]⟩ : Shape).Idx → EReal) :
    (⟨2, ![8192, 2048]⟩ : Shape).Idx → EReal :=
  fun i => ∑ k : Fin 2048, x (ix2 (i 0) k) * S (ix2 k (i 1))

/-- The product at the entry in row `p` and column `q`. -/
theorem times_apply (x : (⟨2, ![8192, 2048]⟩ : Shape).Idx → EReal) (S : (⟨2, ![2048, 2048]⟩ : Shape).Idx → EReal)
    (p : Fin 8192) (q : Fin 2048) : times x S (ix2 p q) = ∑ k : Fin 2048, x (ix2 p k) * S (ix2 k q) := rfl

/-- The data matrix times the signs of the weights. -/
def result (x : (⟨2, ![8192, 2048]⟩ : Shape).Idx → EReal) (W : (⟨2, ![2048, 2048]⟩ : Shape).Idx → EReal) :
    (⟨2, ![8192, 2048]⟩ : Shape).Idx → EReal :=
  times x (signs W)

end SignedProduct

end
-- ==== Proof.ReferenceProduct.lean ====
/-
  The reference computes the signed product.

  The reference compares the weights with a broadcast zero, selects between a broadcast one and a broadcast minus
  one, and multiplies the data by the selected matrix with one matrix product over the whole arrays. Read at an
  entry (p, q), that product is the sum over the contracted coordinate k of x (p, k) times the selected value at
  (k, q), and the selected value at an entry is the sign of the weight there: the specification, term by term.
-/
import proofs.«179740_j90434831385368_2_alg».proof.Proof.Gen.ReferenceIdeal.Read
import proofs.«179740_j90434831385368_2_alg».proof.Proof.SignedProduct

noncomputable section

namespace Cert.ReferenceIdeal.RefValue

open Cert.ReferenceIdeal Cert.ReferenceIdeal.Read Idealize.ShloMosaic Idealize.ShloMosaic.ValueIdx

/-- The selected matrix at an entry is the sign of the weight at that entry. -/
theorem selected_apply (W : S2048x2048.Idx → EReal) (j : S2048x2048.Idx) :
    val_main_v3 (F := Ideal) W j = SignedProduct.sgn (W j) := by
  rw [val_main_v3_apply, val_main_v2_apply, val_main_v1_apply, val_main_v0_apply, val_main_cst_apply,
    val_main_call0_v0_apply, val_main_cst_0_apply, val_main_call0_v1_apply, val_main_cst_1_apply]
  rfl

/-- The reference's product at the entry (p, q): the sum over k of x (p, k) times the sign of W (k, q). -/
theorem reference_apply (x : S8192x2048.Idx → EReal) (W : S2048x2048.Idx → EReal) (p : Fin 8192) (q : Fin 2048) :
    val_main_v4 (F := Ideal) x W (ix2 p q) = ∑ k : Fin 2048, x (ix2 p k) * SignedProduct.sgn (W (ix2 k q)) := by
  rw [val_main_v4_apply]
  refine Finset.sum_congr rfl fun k _ => ?_
  have el : lidx_main_v4 (ix2 p q) k = ix2 p k :=
    funext fun a => Fin.ext (by match a with | ⟨0, _⟩ => rfl | ⟨1, _⟩ => rfl)
  have er : ridx_main_v4 (ix2 p q) k = ix2 k q :=
    funext fun a => Fin.ext (by match a with | ⟨0, _⟩ => rfl | ⟨1, _⟩ => rfl)
  rw [el, er, selected_apply]

/-- The reference's result, as a function of its two arguments, is the data times the signs of the weights. -/
theorem reference_eq (x : S8192x2048.Idx → EReal) (W : S2048x2048.Idx → EReal) :
    val_main_v4 (F := Ideal) x W = SignedProduct.result x W := by
  funext i
  obtain ⟨p, q, rfl⟩ : ∃ (p : Fin 8192) (q : Fin 2048), i = ix2 p q := ⟨i 0, i 1, eq_ix2 i⟩
  rw [reference_apply]
  rfl

end Cert.ReferenceIdeal.RefValue

end
-- ==== Proof.SignBlocks.lean ====
/-
  The first kernel writes the matrix of signs.

  Its grid has four points. At point t it loads the block of the weights made of all 2048 rows and the 512 columns
  starting at column 512·t, replaces every entry by its sign (one where the entry is at least zero, minus one
  elsewhere; the change of float format is the identity on the extended reals) and writes the result to the same
  rows and columns of its output. The input and the output block sit at the same place, so what point t writes
  back is the block of the whole matrix of signs at that place; the four column bands cover the 2048 columns, so
  the output array ends as the matrix of signs of the weights as the kernel found them.
-/
import proofs.«179740_j90434831385368_2_alg».proof.Proof.Gen.KernelIdeal.Frame
import proofs.«179740_j90434831385368_2_alg».proof.Proof.SignedProduct
import Idealize.ShloMosaic.Lib.Pipeline.Value

noncomputable section

namespace Cert.KernelIdeal.SignBlocks

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The body's stored value at an entry of the block is the sign of the loaded entry. -/
theorem sign_payload (x0 : Vec Ideal S2048x512 .f32) (j : S2048x512.Idx) :
    k0_pay1 x0 j = SignedProduct.sgn (x0 j) := rfl

/-- The input block and the output block of a point are at the same place, and the place is column band `t`. -/
theorem band_facts : ∀ t : Fin cfg0.N, win0_0.index t (0 : Fin 2) = win0_1.index t (0 : Fin 2)
    ∧ win0_0.index t (1 : Fin 2) = win0_1.index t (1 : Fin 2)
    ∧ win0_1.index t (0 : Fin 2) = 0 ∧ win0_1.index t (1 : Fin 2) = t.val :=
  (by decide +kernel : ∀ t : Fin grid0.N, _)

/-- What point `t` writes back is its block of the matrix of signs of the weights as the kernel found them. -/
theorem flushed_signs (c : Dev nD) (t : Fin cfg0.N) :
    (dat0 V c).flushed 1 t = ((cfg0.win 1).blk t).view.read (Elt Ideal) (SignedProduct.signs (V c main_arg1)) := by
  show (cfg0.win 1).cut (grid0.coords t) ((dat0 V c).after 1 t) = _
  rw [after0_1]
  unfold out0_1
  rw [View.canon_unit_zero zero_offsets]
  simp only [View.ld_unit_zero (S := S2048x512) zero_offsets]
  obtain ⟨e0, e1, -, -⟩ := band_facts t
  funext j
  show SignedProduct.sgn (V c main_arg1 (((cfg0.win 0).blk t).view.emb j)) = SignedProduct.sgn (V c main_arg1 (((cfg0.win 1).blk t).view.emb j))
  have h0 : ((cfg0.win 0).blk t).view.emb j = ((cfg0.win 1).blk t).view.emb j := by
    funext a; apply Fin.ext
    match a with
    | ⟨0, _⟩ => show win0_0.index t (0 : Fin 2) * 2048 + 1 * (j 0).val = win0_1.index t (0 : Fin 2) * 2048 + 1 * (j 0).val; omega
    | ⟨1, _⟩ => show win0_0.index t (1 : Fin 2) * 512 + 1 * (j 1).val = win0_1.index t (1 : Fin 2) * 512 + 1 * (j 1).val; omega
  rw [h0]

/-- An entry of the output array is in point `t`'s block iff each coordinate is in the block's range on its axis. -/
theorem mem_band (t : Fin cfg0.N) (i : S2048x2048.Idx) :
    i ∈ ((cfg0.win 1).blk t).view.set ↔ ∀ a : Fin 2, win0_1.index t a * S2048x512.size a ≤ (i a).val ∧ (i a).val < win0_1.index t a * S2048x512.size a + S2048x512.size a := by
  show i ∈ ((View.whole main_call0_v0).slice (win0_1.rect t)).set ↔ _
  rw [View.set_slice_whole, Rect.mem_set_unit]
  exact Iff.rfl

/-- Every entry is in the block of the point of its column band: column `q` is in band `q / 512`. -/
theorem bands_cover (i : S2048x2048.Idx) :
    ∃ t : Fin cfg0.N, (cfg0.win 1).flush t = true ∧ i ∈ ((cfg0.win 1).blk t).view.set := by
  have hi0 : (i 0).val < 2048 := (i 0).isLt
  have hi1 : (i 1).val < 2048 := (i 1).isLt
  have hN : grid0.N = 4 := N_0
  let t : Fin cfg0.N := ⟨(i 1).val / 512, by show (i 1).val / 512 < grid0.N; omega⟩
  obtain ⟨-, -, e2, e3⟩ := band_facts t
  have e3' : win0_1.index t (1 : Fin 2) = (i 1).val / 512 := e3
  refine ⟨t, flush0_1 t, ?_⟩
  rw [mem_band]
  intro a
  match a with
  | ⟨0, _⟩ => show win0_1.index t (0 : Fin 2) * 2048 ≤ (i 0).val ∧ (i 0).val < win0_1.index t (0 : Fin 2) * 2048 + 2048; omega
  | ⟨1, _⟩ => show win0_1.index t (1 : Fin 2) * 512 ≤ (i 1).val ∧ (i 1).val < win0_1.index t (1 : Fin 2) * 512 + 512; omega

/-- After the first kernel its output array is the matrix of signs of the weights as the kernel found them. -/
theorem signs_array (c : Dev nD) :
    (dat0 V c).arrAt 1 cfg0.N = SignedProduct.signs (V c main_arg1) :=
  (dat0 V c).arrAt_eq_of_cover 1 (SignedProduct.signs (V c main_arg1)) (fun t _ => flushed_signs V c t) bands_cover

end Cert.KernelIdeal.SignBlocks

end
-- ==== Proof.LibPlainDot.lean ====
/-
  A plain matrix product read at an entry.

  Both programs multiply matrices with the dimension numbers "contract the left operand's columns with the
  right operand's rows, no batch axis" (`DotDims.plain M K N`). On the extended reals the kernel's matrix unit
  accumulating into zero and the host's `dot_general` are the same contraction; this module reads either at the
  entry `(p, q)` as the textbook sum `∑ k, lhs (p, k) * rhs (k, q)` over the `K` contracted coordinates, for any
  extents. The contraction index of the library is a one-coordinate index; the bijection with `Fin K` moves the sum.
-/
import Idealize.ShloMosaic.PureOps.Ideal.Laws
import Idealize.ShloMosaic.Lib.ValueIdx

namespace Gcn.Lib

open Idealize.ShloMosaic Idealize.ShloMosaic.ValueIdx

variable {M K N : ℕ}

/-- The left operand's index at output entry `(p, q)` and contracted coordinate `k` is `(p, k)`. -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single (cl := 1) rfl _ _).trans hk

/-- The right operand's index at output entry `(p, q)` and contracted coordinate `k` is `(k, q)`. -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single (cr := 0) rfl _ _).trans hk
  | ⟨1, _⟩ => rfl

/-- The contraction of a plain product at entry `(p, q)` is the sum over the `K` contracted coordinates. -/
theorem plain_contraction (lhs : (⟨2, ![M, K]⟩ : Shape).Idx → EReal) (rhs : (⟨2, ![K, N]⟩ : Shape).Idx → EReal)
    (p : Fin M) (q : Fin N) :
    ∑ k : (DotDims.plain M K N).contr.Idx,
        lhs ((DotDims.plain M K N).lhsIdx (ix2 p q) k) * rhs ((DotDims.plain M K N).rhsIdx (ix2 p q) k)
      = ∑ k : Fin K, lhs (ix2 p k) * rhs (ix2 k q) := by
  rw [← Equiv.sum_comp (contrEquiv1 (DotDims.plain M K N) K rfl rfl).symm]
  refine Finset.sum_congr rfl fun k _ => ?_
  rw [plain_lhsIdx, plain_rhsIdx]

/-- The kernel's matrix unit accumulating into the zero vector, read at entry `(p, q)`. -/
theorem plain_matmul_zero_apply {φ₁ φ₂ : FTy} (lhs : FVec Ideal ⟨2, ![M, K]⟩ φ₁) (rhs : FVec Ideal ⟨2, ![K, N]⟩ φ₂)
    (prec : Option ContractPrecision) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) :=
  (Ideal.matmul_constant_zero_apply (DotDims.plain M K N) prec lhs rhs (ix2 p q)).trans (plain_contraction lhs rhs p q)

/-- The host's `dot_general`, read at entry `(p, q)`: the same sum. -/
theorem plain_dotGeneral_apply {φ₁ φ₂ : FTy} (lhs : FVec Ideal ⟨2, ![M, K]⟩ φ₁) (rhs : FVec Ideal ⟨2, ![K, N]⟩ φ₂)
    (prec : Option ContractPrecision) (sched : HostSchedule) (p : Fin M) (q : Fin N) :
    FloatOps.dotGeneral (DotDims.plain M K N) prec sched lhs rhs (ix2 p q)
      = ∑ k : Fin K, lhs (ix2 p k) * rhs (ix2 k q) :=
  (Ideal.dotGeneral_apply (DotDims.plain M K N) prec sched lhs rhs (ix2 p q)).trans (plain_contraction lhs rhs p q)

end Gcn.Lib
-- ==== Proof.LibDotRecord.lean ====
/-
  A printed matrix-product record read as the plain product, and a row vector broadcast down the rows.

  A matrix product of an [M, K] by a [K, N] operand that contracts the left operand's columns with the right
  operand's rows and has no batch axis is determined by its six lists of axes; the record's last field is a proof.
  So any record with those lists IS the plain record, and every lemma about the plain product reads it: at entry
  (p, q) the product accumulated into zero is the sum over k of lhs (p, k) * rhs (k, q).
  A [1, b] row broadcast over [a, b] reads, at (r, c), the row's entry c.
-/
import proofs.«179740_j90434831385368_2_alg».proof.Proof.LibPlainDot
import Idealize.ShloMosaic.Lib.Pipeline.Value

namespace DotRecord

open Idealize.ShloMosaic Idealize.ShloMosaic.ValueIdx

variable {M K N : ℕ}

/-- A record whose six axis lists are the plain product's is the plain product's record. -/
theorem eq_plain (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = []) :
    d = DotDims.plain M K N := by
  obtain ⟨lc, rc, ln, rn, lb, rb, wf⟩ := d
  simp only at h1 h2 h3 h4 h5 h6
  subst h1 h2 h3 h4 h5 h6
  rfl

/-- The matrix unit accumulating into the zero vector, under any record with the plain lists, at entry (p, q). -/
theorem matmul_zero_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (lhs : FVec Ideal ⟨2, ![M, K]⟩ φ₁) (rhs : FVec Ideal ⟨2, ![K, N]⟩ φ₂)
    (prec : Option ContractPrecision) (p : Fin M) (q : Fin N) :
    FloatOps.matmul d prec lhs rhs (constant ⟨2, ![M, N]⟩ .f32 0x00000000#32) (ix2 p q)
      = ∑ k : Fin K, lhs (ix2 p k) * rhs (ix2 k q) := by
  rw [eq_plain d h1 h2 h3 h4 h5 h6]
  exact Gcn.Lib.plain_matmul_zero_apply lhs rhs prec p q

/-- A row [1, b] broadcast over [a, b] reads, at (r, c), the row's entry c. -/
theorem broadcastTo_1b_ab_apply {α : Type} {a b : ℕ} (v : (⟨2, ![1, b]⟩ : Shape).Idx → α)
    (h : (⟨2, ![1, b]⟩ : Shape).Broadcasts ⟨2, ![a, b]⟩) (r : Fin a) (c : Fin b) :
    broadcastTo ⟨2, ![a, b]⟩ v h (ix2 r c) = v (ix2 (0 : Fin 1) c) := by
  refine broadcastTo_apply v h (ix2 r c) (ix2 (0 : Fin 1) c) fun ax => ?_
  match ax with
  | ⟨0, _⟩ =>
    show (0 : ℕ) = if (1 : ℕ) = 1 then 0 else r.val
    rw [if_pos rfl]
  | ⟨1, _⟩ =>
    show c.val = if b = 1 then 0 else c.val
    split
    · have := c.isLt; omega
    · rfl

end DotRecord
-- ==== Proof.ProductBlocks.lean ====
/-
  The second kernel multiplies block by block.

  Its grid has 2 × 16 points; point t has a column coordinate (0 or 1) and a row coordinate (0 … 15). There it
  loads the 512 rows of the data starting at row 512 · (row coordinate), all 2048 columns; the 1024 columns of the
  second operand starting at column 1024 · (column coordinate), all 2048 rows; multiplies the two blocks on the
  matrix unit into a zero accumulator (the change of float format before it is the identity on the extended
  reals); and writes the 512 × 1024 product to the output's block at (row coordinate, column coordinate).

  Entry (p, q) of that product is the sum over the 2048 contracted coordinates k of the data block's (p, k) times
  the second block's (k, q). The data block's row p is row 512 · (row coordinate) + p of the data and the second
  block's column q is column 1024 · (column coordinate) + q of the second operand, while the contracted
  coordinate runs over the whole axis in both: so the entry is the entry of the product of the WHOLE matrices at
  the place the output block is written. The 16 × 2 blocks tile the 8192 × 2048 output, so the output array ends
  as the whole product of the two arrays as the kernel found them.
-/
import proofs.«179740_j90434831385368_2_alg».proof.Proof.Gen.KernelIdeal.Frame
import proofs.«179740_j90434831385368_2_alg».proof.Proof.SignedProduct
import proofs.«179740_j90434831385368_2_alg».proof.Proof.LibDotRecord
import Idealize.ShloMosaic.Lib.Pipeline.Value

noncomputable section

namespace Cert.KernelIdeal.ProductBlocks

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The body's stored value at entry (p, q): the sum over k of the first block's (p, k) times the second's (k, q). -/
theorem product_payload (x0 : Vec Ideal S512x2048 .f32) (x1 : Vec Ideal S2048x1024 .bf16) (p : Fin 512) (q : Fin 1024) :
    k1_pay1 x0 x1 (ix2 p q) = ∑ k : Fin 2048, x0 (ix2 p k) * x1 (ix2 k q) := by
  unfold k1_pay1
  show FloatOps.matmul dot_S512x2048_S2048x1024_S512x1024_1_0_0_1_n_n none
    (truncf .bf16 x0 bitsLt_bf16_f32 : FVec Ideal S512x2048 .bf16)
    (shapeCast S2048x1024 x1 shapeCasts_S2048x1024_S2048x1024 : FVec Ideal S2048x1024 .bf16)
    (constant S512x1024 .f32 0x00000000#32) (ix2 p q) = _
  rw [shapeCast_self]
  exact DotRecord.matmul_zero_apply (φ₁ := .bf16) (φ₂ := .bf16) dot_S512x2048_S2048x1024_S512x1024_1_0_0_1_n_n
    rfl rfl rfl rfl rfl rfl (truncf .bf16 x0 bitsLt_bf16_f32) x1 none p q

/-- A product of two blocks is a block of the product of the whole matrices: when the first block's rows are the
    rows `r + ·` of `A` (all columns), the second block's columns the columns `s + ·` of `B` (all rows), and the
    output block sits at rows `r + ·` and columns `s + ·`. -/
theorem block_of_product (A : S8192x2048.Idx → EReal) (B : S2048x2048.Idx → EReal)
    (x0 : Vec Ideal S512x2048 .f32) (x1 : Vec Ideal S2048x1024 .bf16)
    (e0 : S512x2048.Idx → S8192x2048.Idx) (e1 : S2048x1024.Idx → S2048x2048.Idx) (e2 : S512x1024.Idx → S8192x2048.Idx)
    (h0 : ∀ y, x0 y = A (e0 y)) (h1 : ∀ y, x1 y = B (e1 y)) (r s : ℕ)
    (he0 : ∀ y, (e0 y 0).val = r + (y 0).val ∧ (e0 y 1).val = (y 1).val)
    (he1 : ∀ y, (e1 y 0).val = (y 0).val ∧ (e1 y 1).val = s + (y 1).val)
    (he2 : ∀ y, (e2 y 0).val = r + (y 0).val ∧ (e2 y 1).val = s + (y 1).val)
    (j : S512x1024.Idx) :
    k1_pay1 x0 x1 j = SignedProduct.times A B (e2 j) := by
  obtain ⟨p, q, rfl⟩ : ∃ (p : Fin 512) (q : Fin 1024), j = ix2 p q := ⟨j 0, j 1, eq_ix2 j⟩
  obtain ⟨P, Q, hPQ⟩ : ∃ (P : Fin 8192) (Q : Fin 2048), e2 (ix2 p q) = ix2 P Q := ⟨_, _, eq_ix2 _⟩
  have hP : P.val = r + p.val := by have := (he2 (ix2 p q)).1; rw [hPQ] at this; exact this
  have hQ : Q.val = s + q.val := by have := (he2 (ix2 p q)).2; rw [hPQ] at this; exact this
  rw [product_payload, hPQ, SignedProduct.times_apply]
  refine Finset.sum_congr rfl fun k _ => ?_
  have a0 : e0 (ix2 p k) = ix2 P k := by
    funext a; apply Fin.ext
    match a with
    | ⟨0, _⟩ => exact ((he0 (ix2 p k)).1).trans hP.symm
    | ⟨1, _⟩ => exact (he0 (ix2 p k)).2
  have a1 : e1 (ix2 k q) = ix2 k Q := by
    funext a; apply Fin.ext
    match a with
    | ⟨0, _⟩ => exact (he1 (ix2 k q)).1
    | ⟨1, _⟩ => exact ((he1 (ix2 k q)).2).trans hQ.symm
  rw [h0, h1, a0, a1]

/-- Where each window's block sits at point `t`: the data block in the output block's rows and column band 0; the
    second operand's block in row band 0 and the output block's columns. -/
theorem place_facts : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = win1_2.index t (1 : Fin 2) :=
  (by decide +kernel : ∀ t : Fin grid1.N, _)

/-- Every block of the 16 × 2 tiling is some point's output block. -/
theorem place_onto : ∀ (q0 : Fin 16) (q1 : Fin 2), ∃ t : Fin cfg1.N, win1_2.index t = ![q0.val, q1.val] :=
  (by decide +kernel : ∀ (q0 : Fin 16) (q1 : Fin 2), ∃ t : Fin grid1.N, win1_2.index t = ![q0.val, q1.val])

/-- What point `t` writes back is its block of the product of the two whole arrays as the kernel found them. -/
theorem flushed_product (c : Dev nD) (t : Fin cfg1.N) :
    (dat1 V c).flushed 2 t = ((cfg1.win 2).blk t).view.read (Elt Ideal)
      (SignedProduct.times (V c main_arg0) (V c main_call0_v0)) := by
  show (cfg1.win 2).cut (grid1.coords t) ((dat1 V c).after 2 t) = _
  rw [after1_2]
  unfold out1_2
  rw [View.canon_unit_zero zero_offsets]
  simp only [View.ld_unit_zero (S := S512x2048) zero_offsets, View.ld_unit_zero (S := S2048x1024) zero_offsets]
  obtain ⟨f0, f1, f2, f3⟩ := place_facts t
  funext j
  exact block_of_product (V c main_arg0) (V c main_call0_v0) (iblk1 V c 0 t) (iblk1 V c 1 t)
    (((cfg1.win 0).blk t).view.emb) (((cfg1.win 1).blk t).view.emb) (((cfg1.win 2).blk t).view.emb)
    (fun _ => rfl) (fun _ => rfl) (win1_2.index t (0 : Fin 2) * 512) (win1_2.index t (1 : Fin 2) * 1024)
    (fun y => ⟨by show win1_0.index t (0 : Fin 2) * 512 + 1 * (y 0).val = _; omega,
               by show win1_0.index t (1 : Fin 2) * 2048 + 1 * (y 1).val = _; omega⟩)
    (fun y => ⟨by show win1_1.index t (0 : Fin 2) * 2048 + 1 * (y 0).val = _; omega,
               by show win1_1.index t (1 : Fin 2) * 1024 + 1 * (y 1).val = _; omega⟩)
    (fun y => ⟨by show win1_2.index t (0 : Fin 2) * 512 + 1 * (y 0).val = _; omega,
               by show win1_2.index t (1 : Fin 2) * 1024 + 1 * (y 1).val = _; omega⟩)
    j

/-- An entry of the output array is in point `t`'s block iff each coordinate is in the block's range on its axis. -/
theorem mem_block (t : Fin cfg1.N) (i : S8192x2048.Idx) :
    i ∈ ((cfg1.win 2).blk t).view.set ↔ ∀ a : Fin 2, win1_2.index t a * S512x1024.size a ≤ (i a).val ∧ (i a).val < win1_2.index t a * S512x1024.size a + S512x1024.size a := by
  show i ∈ ((View.whole main_v0).slice (win1_2.rect t)).set ↔ _
  rw [View.set_slice_whole, Rect.mem_set_unit]
  exact Iff.rfl

/-- Every entry is in some point's block: row `p` is in row band `p / 512`, column `q` in column band `q / 1024`. -/
theorem blocks_cover (i : S8192x2048.Idx) :
    ∃ t : Fin cfg1.N, (cfg1.win 2).flush t = true ∧ i ∈ ((cfg1.win 2).blk t).view.set := by
  have hi0 : (i 0).val < 8192 := (i 0).isLt
  have hi1 : (i 1).val < 2048 := (i 1).isLt
  obtain ⟨t, ht⟩ := place_onto ⟨(i 0).val / 512, by omega⟩ ⟨(i 1).val / 1024, by omega⟩
  have q0 : win1_2.index t (0 : Fin 2) = (i 0).val / 512 := congrFun ht 0
  have q1 : win1_2.index t (1 : Fin 2) = (i 1).val / 1024 := congrFun ht 1
  refine ⟨t, flush1_2 t, ?_⟩
  rw [mem_block]
  intro a
  match a with
  | ⟨0, _⟩ => show win1_2.index t (0 : Fin 2) * 512 ≤ (i 0).val ∧ (i 0).val < win1_2.index t (0 : Fin 2) * 512 + 512; omega
  | ⟨1, _⟩ => show win1_2.index t (1 : Fin 2) * 1024 ≤ (i 1).val ∧ (i 1).val < win1_2.index t (1 : Fin 2) * 1024 + 1024; omega

/-- After the second kernel its output array is the product of the two arrays as the kernel found them. -/
theorem product_array (c : Dev nD) :
    (dat1 V c).arrAt 2 cfg1.N = SignedProduct.times (V c main_arg0) (V c main_call0_v0) :=
  (dat1 V c).arrAt_eq_of_cover 2 (SignedProduct.times (V c main_arg0) (V c main_call0_v0))
    (fun t _ => flushed_product V c t) blocks_cover

end Cert.KernelIdeal.ProductBlocks

end
-- ==== Proof.WholeRun.lean ====
/-
  The two kernels one after the other.

  The program's run is the run of its two kernels in order, each entered from the memory the previous one left.
  The first is entered from the launch memory and leaves, in its output array, the matrix of signs of the weights;
  it writes nothing else, so the second finds the data as launched and that matrix of signs as its second operand,
  and leaves their product in the result's array. Neither writes an argument. So every run of the program ends
  with the result's array holding the data times the signs of the weights, both read at launch, and with the
  arguments as launched.

  The run itself is the several-kernels launch theorem applied to the program's two segments, exactly as for the
  statement that the arguments end unchanged, with the result's array added to what is read off the final memory.
-/
import proofs.«179740_j90434831385368_2_alg».proof.Proof.Gen.KernelIdeal.Frame
import proofs.«179740_j90434831385368_2_alg».proof.Proof.SignBlocks
import proofs.«179740_j90434831385368_2_alg».proof.Proof.ProductBlocks

set_option maxRecDepth 16384

noncomputable section

namespace Cert.KernelIdeal.WholeRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every weakly fair execution of the program terminates, nothing faulting, with the result's array at the
    contents the second kernel leaves and the arguments as launched. -/
theorem run_named : θ_run defs (onTc (τ := τ) (main (F := Ideal))) ⟨m, fun _ => 0, ρ⟩ (fun r => ∀ c : Dev nD,
      r.2.mem ((c.tc : Thread nD τ).loc main_v0) = W2 m ρ c (Proc.devRef .tc main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h c =>
      ⟨h c _ (mem_uc main_v0 (by decide)),
       (h c _ (mem_uc main_arg0 (by decide))).trans (W2_main_arg0 m ρ c),
       (h c _ (mem_uc main_arg1 (by decide))).trans (W2_main_arg1 m ρ c)⟩)

/-- What the second kernel leaves in the result's array: the data times the signs of the weights, both as launched.
    The second kernel's product is of the arrays it finds; the data it finds is the launch's (the first kernel does
    not write it), and its second operand is what the first kernel left: the signs of the launch's weights. -/
theorem result_value (c : Dev nD) :
    W2 m ρ c (Proc.devRef .tc main_v0)
      = SignedProduct.result (m ((c.tc : Thread nD τ).loc main_arg0)) (m ((c.tc : Thread nD τ).loc main_arg1)) := by
  have hx : V1 m ρ c main_arg0 = m ((c.tc : Thread nD τ).loc main_arg0) := W1_of_ne m ρ c main_arg0 (by decide)
  have hs : V1 m ρ c main_call0_v0 = SignedProduct.signs (m ((c.tc : Thread nD τ).loc main_arg1)) :=
    (W1_arr m ρ c 1).trans (SignBlocks.signs_array (V0 m ρ) c)
  calc W2 m ρ c (Proc.devRef .tc main_v0)
    _ = (dat1 (V1 m ρ) c).arrAt 2 cfg1.N := W2_arr m ρ c 2
    _ = SignedProduct.times (V1 m ρ c main_arg0) (V1 m ρ c main_call0_v0) := ProductBlocks.product_array (V1 m ρ) c
    _ = SignedProduct.times (m ((c.tc : Thread nD τ).loc main_arg0)) (SignedProduct.signs (m ((c.tc : Thread nD τ).loc main_arg1))) := by
        rw [hx, hs]
    _ = _ := rfl

/-- Every run of the program ends with the result's array at the data times the signs of the weights, read at launch,
    and the arguments as launched. -/
theorem run : θ_run defs (onTc (τ := τ) (main (F := Ideal))) ⟨m, fun _ => 0, ρ⟩ (fun r => ∀ c : Dev nD,
      r.2.mem ((c.tc : Thread nD τ).loc main_v0)
        = SignedProduct.result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c).1.trans (result_value m ρ c), (h c).2⟩) (run_named m ρ)

end Cert.KernelIdeal.WholeRun

end
-- ==== Proof.lean ====
/-
  A data matrix times the signs of a weight matrix: x · sign(W), with sign 0 = +1.

  The kernel program works in two steps. A first kernel replaces every weight by its sign (one where the weight is
  at least zero, minus one elsewhere), four column bands of 512 columns, one per grid point. A second kernel
  multiplies the 8192 × 2048 data by that 2048 × 2048 matrix of signs, 512 × 1024 output block by block over a
  2 × 16 grid, each block one product on the matrix unit into a zero accumulator over the WHOLE contracted axis.
  The reference selects the same signs with one comparison and one selection over the whole weight matrix, and
  multiplies with one matrix product.

  On the extended reals a change of float format is the identity, and both matrix products read, at the entry
  (p, q), as the sum over the 2048 contracted coordinates k of x (p, k) · sign (W (k, q)). A block of the kernel's
  product is that sum at the block's place in the whole array, because the kernel's blocks cut only the rows of the
  data and the columns of the signs, never the contracted axis; the blocks tile the result. So both programs end
  with the same array, the same function of the arguments entry by entry (Proof/SignedProduct.lean); no
  arithmetic law is needed beyond reading both products as that sum, and the finiteness of the inputs is not used.

  The idealized kernel is the kernel's own text read on the extended reals (no operation was rewritten), so that
  claim is the trivial one. The three programs' runs terminate with their arguments unchanged: for the two kernel
  programs by the launch theorem for a program of several kernels, for the reference by its run as a list of host
  operations.
-/
import proofs.«179740_j90434831385368_2_alg».proof.Defs
import proofs.«179740_j90434831385368_2_alg».proof.Proof.Gen.Kernel
import proofs.«179740_j90434831385368_2_alg».proof.Proof.Gen.Kernel.Frame
import proofs.«179740_j90434831385368_2_alg».proof.Proof.Gen.KernelIdeal
import proofs.«179740_j90434831385368_2_alg».proof.Proof.Gen.KernelIdeal.Frame
import proofs.«179740_j90434831385368_2_alg».proof.Proof.Gen.ReferenceIdeal
import proofs.«179740_j90434831385368_2_alg».proof.Proof.Gen.ReferenceIdeal.Run
import proofs.«179740_j90434831385368_2_alg».proof.Proof.Gen.ReferenceIdeal.Read
import proofs.«179740_j90434831385368_2_alg».proof.Proof.Gen.Pre_finite_inputs
import proofs.«179740_j90434831385368_2_alg».proof.Proof.ReferenceProduct
import proofs.«179740_j90434831385368_2_alg».proof.Proof.WholeRun
import Idealize.ShloMosaic.Adequacy
import Idealize.ShloMosaic.Init

noncomputable section

namespace Cert.Proof

open Idealize.ShloMosaic Idealize.ShloMosaic.TcCoe Idealize.SL.Sem

/-- The kernel program, word by word, terminates with its arguments unchanged. -/
theorem frame_kernel : Cert.frame_Kernel := fun m ρ _ => Cert.Kernel.Gen.frame m ρ

/-- So does the kernel program read on the extended reals. -/
theorem frame_kernel_ideal : Cert.frame_KernelIdeal := fun m ρ _ => Cert.KernelIdeal.Gen.frame m ρ

/-- The reference's run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation was rewritten between the kernel and its reading on the extended reals. -/
theorem preserves : Cert.preserves_Kernel_KernelIdeal := trivial

/-- From memories that agree on the arguments both programs end with the data times the signs of the weights:
    the kernel program by its two kernels' run, the reference by its one product read entry by entry. -/
theorem algebraic : Cert.algebraic_KernelIdeal_ReferenceIdeal := by
  intro m ρ m' ρ' _ hagree
  refine ⟨_, Cert.KernelIdeal.WholeRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.ReferenceIdeal.RefValue.reference_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
